-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S64x4096 : Shape := ⟨2, ![64, 4096]⟩
abbrev S8192x64 : Shape := ⟨2, ![8192, 64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S8192x4096 .f32) (main_arg1 : FVec F S64x4096 .f32) (main_arg2 : FVec F S8192x64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  main_v13
-- ==== Kernel.lean ====
abbrev S8192x4096 : Shape := ⟨2, ![8192, 4096]⟩
abbrev S64x4096 : Shape := ⟨2, ![64, 4096]⟩
abbrev S8192x64 : Shape := ⟨2, ![8192, 64]⟩
abbrev S128x4096 : Shape := ⟨2, ![128, 4096]⟩
abbrev S512x64 : Shape := ⟨2, ![512, 64]⟩
abbrev S128x64 : Shape := ⟨2, ![128, 64]⟩

abbrev nBuf : Space → Nat
  | .hbm => 4
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S8192x64, .f32⟩
  | .hbm, ⟨3, _⟩ => ⟨S8192x64, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S64x4096, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S64x4096_S64x4096_0_0 : ∀ a, (![0, 0] : Fin 2 → Nat) a + S64x4096.size a ≤ S64x4096.size a
  h_S64x4096 : 0 < S64x4096.numel
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S512x64_S128x64_0_0 : ∀ a, (![0, 0] : Fin 2 → Nat) a + S128x64.size a ≤ S512x64.size a
  h_S128x64 : 0 < S128x64.numel
  inb_S512x64_S128x64_128_0 : ∀ a, (![128, 0] : Fin 2 → Nat) a + S128x64.size a ≤ S512x64.size a
  inb_S512x64_S128x64_256_0 : ∀ a, (![256, 0] : Fin 2 → Nat) a + S128x64.size a ≤ S512x64.size a
  inb_S512x64_S128x64_384_0 : ∀ a, (![384, 0] : Fin 2 → Nat) a + S128x64.size a ≤ S512x64.size a
  dot_S128x4096_S64x4096_S128x64_1_1_0_0_n_n_wf : DotDims.WF S128x4096 S64x4096 S128x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S64x4096.size a
  hwx0_4 : ∀ i : grid0.Coords, EltTy.bits .f32 = 32 ∨ (Rect.block (s := S64x4096) S64x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S8192x64.size a
  hwx0_5 : ∀ i : grid0.Coords, EltTy.bits .f32 = 32 ∨ (Rect.block (s := S8192x64) S512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S8192x64.size a
  hwx0_6 : ∀ i : grid0.Coords, EltTy.bits .f32 = 32 ∨ (Rect.block (s := S8192x64) S512x64.size (cc0_transform_6 i) (hinb0_6 i)).WholeWords (EltTy.packing .f32)

variable [Facts₀]

def dot_S128x4096_S64x4096_S128x64_1_1_0_0_n_n : DotDims S128x4096 S64x4096 S128x64 where
  lhsContracting := [1]
  rhsContracting := [1]
  lhsNonContracting := [0]
  rhsNonContracting := [0]
  lhsBatch := []
  rhsBatch := []
  wf := dot_S128x4096_S64x4096_S128x64_1_1_0_0_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S64x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S64x4096 : Shape := ⟨2, ![64, 4096]⟩
abbrev S8192x64 : Shape := ⟨2, ![8192, 64]⟩
abbrev S4096x64 : Shape := ⟨2, ![4096, 64]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S8192x64, .f32⟩
  | .hbm, ⟨3, _⟩ => ⟨S4096x64, .f32⟩
  | .hbm, ⟨4, _⟩ => ⟨S8192x64, .f32⟩
  | .hbm, ⟨5, _⟩ => ⟨S8192x64, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S64x4096_S4096x64_1_0 : S64x4096.Transposes [1, 0] S4096x64
  dot_S8192x4096_S4096x64_S8192x64_1_0_0_1_n_n_wf : DotDims.WF S8192x4096 S4096x64 S8192x64 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf

class Facts : Prop extends Facts₀ where

variable [Facts]
-- ==== Proof.BitsBody.lean ====
/-
  The router block's body as a triple, for every float instance: run on whole staging buffers — the four
  row blocks of x, the weight matrix W and the noise block at given contents, the output block at anything —
  it leaves the inputs as they were and the output block holding, in its four bands of 128 rows, the band's
  rows of x times the transpose of W plus the band's rows of the noise block.
-/
import proofs.«137282_g14456859918464_retrytranche1_0_24_alg».proof.Proof.Gen.Kernel.Launch
import proofs.«137282_g14456859918464_retrytranche1_0_24_alg».proof.Proof.Gen.Kernel.Skeleton
import proofs.«137282_g14456859918464_retrytranche1_0_24_alg».proof.Proof.Gen.Kernel.Points
import Idealize.ShloMosaic.Lib.Pipeline.FrameBody
import Idealize.ShloMosaic.Lib.Tactic

set_option maxRecDepth 16384

noncomputable section

namespace Cert.Kernel.Router

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole weight block. -/
abbrev rW : Rect S64x4096 := Rect.unit (s := S64x4096) ![0, 0] S64x4096.size inb_S64x4096_S64x4096_0_0
/-- A whole row block of x. -/
abbrev rX : Rect S128x4096 := Rect.unit (s := S128x4096) ![0, 0] S128x4096.size inb_S128x4096_S128x4096_0_0
/-- The four bands of 128 rows of a 512-row block. -/
abbrev band0 : Rect S512x64 := Rect.unit (s := S512x64) ![0, 0] S128x64.size inb_S512x64_S128x64_0_0
abbrev band1 : Rect S512x64 := Rect.unit (s := S512x64) ![128, 0] S128x64.size inb_S512x64_S128x64_128_0
abbrev band2 : Rect S512x64 := Rect.unit (s := S512x64) ![256, 0] S128x64.size inb_S512x64_S128x64_256_0
abbrev band3 : Rect S512x64 := Rect.unit (s := S512x64) ![384, 0] S128x64.size inb_S512x64_S128x64_384_0

/-! ## What the body leaves in the output block -/

/-- The output block after the body: band s holds the product of row block s of x with the transpose of W, plus
    band s of the noise block (the four stores, last first). -/
def outBlock (x0 x1 x2 x3 : Vec F S128x4096 .f32) (w : Vec F S64x4096 .f32) (nz : Vec F S512x64 .f32) : Vec F S512x64 .f32 :=
  View.canon [⟨band3, k0_pay5 (View.ld w rW) (View.ld x3 rX) (View.ld nz band3)⟩,
    ⟨band2, k0_pay4 (View.ld w rW) (View.ld x2 rX) (View.ld nz band2)⟩,
    ⟨band1, k0_pay3 (View.ld w rW) (View.ld x1 rX) (View.ld nz band1)⟩,
    ⟨band0, k0_pay2 (View.ld w rW) (View.ld x0 rX) (View.ld nz band0)⟩]

/-- The four bands tile the block, so every index lies in one of them. -/
theorem bands_cover (p3 p2 p1 p0 : Vec F S128x64 .f32) (y : S512x64.Idx) :
    ∃ pc ∈ ([⟨band3, p3⟩, ⟨band2, p2⟩, ⟨band1, p1⟩, ⟨band0, p0⟩] : List (View.Piece (Elt F) S512x64 .f32)), y ∈ pc.1.set :=
  View.cover_of_tiled [⟨band3, p3⟩, ⟨band2, p2⟩, ⟨band1, p1⟩, ⟨band0, p0⟩] S128x64.size (by rfl) y

/-! ## The body's triple -/

set_option maxHeartbeats 2000000 in
/-- The body on whole staging buffers. -/
theorem sound_kernel (c : Dev nD) (E : Set ℕ) (i : grid0.Coords)
    (arg1 : Memref sig .tc .vmem S128x4096 .f32) (harg1 : arg1.IsWhole) (arg2 : Memref sig .tc .vmem S128x4096 .f32) (harg2 : arg2.IsWhole)
    (arg3 : Memref sig .tc .vmem S128x4096 .f32) (harg3 : arg3.IsWhole) (arg4 : Memref sig .tc .vmem S128x4096 .f32) (harg4 : arg4.IsWhole)
    (arg5 : Memref sig .tc .vmem S64x4096 .f32) (harg5 : arg5.IsWhole) (arg6 : Memref sig .tc .vmem S512x64 .f32) (harg6 : arg6.IsWhole)
    (arg7 : Memref sig .tc .vmem S512x64 .f32) (harg7 : arg7.IsWhole)
    (x0 x1 x2 x3 : Vec F S128x4096 .f32) (w : Vec F S64x4096 .f32) (nz : Vec F S512x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w ∗ owns (c : Thread nD τ) arg6 fullShare nz
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w ∗ owns (c : Thread nD τ) arg6 fullShare nz
            ∗ owns (c : Thread nD τ) arg7 fullShare (outBlock x0 x1 x2 x3 w nz)) -∗ K ⟨⟩))
      ⊢ wp frame (wpE (defs₀ (F := F)) Variants.none c none) E
          (cc0__router_block i arg1 harg1 arg2 harg2 arg3 harg3 arg4 harg4 arg5 harg5 arg6 harg6 arg7 harg7) K := by
  simp only [cc0__router_block_eq_skeleton]; unfold cc0__router_block_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (bands_cover _ _ _ _)

end Cert.Kernel.Router

end
-- ==== Proof.BitsRun.lean ====
/-
  The router's one pipeline, for every float instance: its proof data (each input window's staging buffer holds
  its block of the array at every point; the output block is the body's), the body at every point, the launch —
  the four windows that read x hold its buffer at a quarter share each — and the run: every weakly fair
  execution ends, nothing faulting, with each window's array at what the write-backs leave.
-/
import proofs.«137282_g14456859918464_retrytranche1_0_24_alg».proof.Proof.BitsBody
import Idealize.ShloMosaic.Lib.Pipeline.Launch

set_option maxRecDepth 16384

noncomputable section

namespace Cert.Kernel.Router

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- The program is the region alone: the region finds every buffer as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (the weight
    window is fetched once: its block index never moves), for any proof data over these arrays whose body leaves
    the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data: the arrays as launched; after the body each input buffer at its block and the output buffer at
    the body's output block of the six input blocks; nothing kept between points, nothing owed; x's buffer dealt
    in quarters to the four windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := BI.emp
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## Dealing the arrays to the windows -/

/-- The buffers behind the windows' arrays are x's, W's, the noise's and the result's. -/
theorem arrRefs_eq : Finset.univ.image (Pipeline.arrRef spec0) = insert main_arg0 (insert main_arg1 (insert main_arg2 {main_v0})) := by decide

/-- The four buffers, each whole at the full share, are the windows' arrays at the proof data's shares: x's buffer
    is halved and each half halved again, one quarter for each window that reads it. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hA : (dats m 0 c).arrays ((dats m 0 c).arrAt · 0)
      = bigSep Finset.univ fun w : Fin 7 => (((c : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [hA, bigSep_W0]
  unfold Pipeline.arrBufs
  rw [arrRefs_eq, bigSep_insert (by decide), bigSep_insert (by decide), bigSep_insert (by decide), bigSep_singleton]
  refine (show iprop((((c : Thread nD τ).loc main_arg0) ↦{fullShare} V m c main_arg0) ∗ (((c : Thread nD τ).loc main_arg1) ↦{fullShare} V m c main_arg1)
      ∗ (((c : Thread nD τ).loc main_arg2) ↦{fullShare} V m c main_arg2) ∗ (((c : Thread nD τ).loc main_v0) ↦{fullShare} V m c main_v0)) ⊢ _ from ?_)
  iintro ⟨Hx, Hw, Hn, Ho⟩
  ihave Hx' := (pointsTo_share (PosShare.mem_left_op_right fullShare)).1 $$ Hx
  icases Hx' with ⟨HL, HR⟩
  ihave HL' := (pointsTo_share (PosShare.mem_left_op_right fullShare.left)).1 $$ HL
  icases HL' with ⟨HLL, HLR⟩
  ihave HR' := (pointsTo_share (PosShare.mem_left_op_right fullShare.right)).1 $$ HR
  icases HR' with ⟨HRL, HRR⟩
  isplitl [HLL]; · iexact HLL
  isplitl [HLR]; · iexact HLR
  isplitl [HRL]; · iexact HRL
  isplitl [HRR]; · iexact HRR
  isplitl [Hw]; · iexact Hw
  isplitl [Hn]; · iexact Hn
  iexact Ho

/-! ## The run -/

set_option backward.isDefEq.respectTransparency.types false in
/-- At the compiled mesh, for any float values, from any memory with zero counters: every weakly fair execution of
    the program terminates, nothing faulting, with every window's array at what the write-backs leave. -/
theorem run_main : θ_run defs (onTc (τ := τ) (main (F := F))) (s₀ m ρ)
    (fun r => ∀ (c : Dev nD) (w : Fin cfg0.W), r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := arrays_split m)
    (X := fun _ => iprop(emp)) (Y := fun _ => iprop(emp)) (Z := fun _ => iprop(emp))
    (hX := fun c => by rw [unscopedRest0_eq]; iintro -; isplitr <;> iempintro)
    (hin := fun c => by iintro -; iempintro)
    (hout := fun c => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The three argument arrays end as launched: no window writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 0).trans (((dats m 0 c).arrAt_in 0 rfl _).trans (A_eq m c 0)),
      (h c 4).trans (((dats m 0 c).arrAt_in 4 rfl _).trans (A_eq m c 4)),
      (h c 5).trans (((dats m 0 c).arrAt_in 5 rfl _).trans (A_eq m c 5))⟩) (run_main m ρ)

end Cert.Kernel.Router

end
-- ==== Proof.IdealBody.lean ====
/-
  The router block's body as a triple, for every float instance: run on whole staging buffers — the four
  row blocks of x, the weight matrix W and the noise block at given contents, the output block at anything —
  it leaves the inputs as they were and the output block holding, in its four bands of 128 rows, the band's
  rows of x times the transpose of W plus the band's rows of the noise block.
-/
import proofs.«137282_g14456859918464_retrytranche1_0_24_alg».proof.Proof.Gen.KernelIdeal.Launch
import proofs.«137282_g14456859918464_retrytranche1_0_24_alg».proof.Proof.Gen.KernelIdeal.Skeleton
import proofs.«137282_g14456859918464_retrytranche1_0_24_alg».proof.Proof.Gen.KernelIdeal.Points
import Idealize.ShloMosaic.Lib.Pipeline.FrameBody
import Idealize.ShloMosaic.Lib.Tactic

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole weight block. -/
abbrev rW : Rect S64x4096 := Rect.unit (s := S64x4096) ![0, 0] S64x4096.size inb_S64x4096_S64x4096_0_0
/-- A whole row block of x. -/
abbrev rX : Rect S128x4096 := Rect.unit (s := S128x4096) ![0, 0] S128x4096.size inb_S128x4096_S128x4096_0_0
/-- The four bands of 128 rows of a 512-row block. -/
abbrev band0 : Rect S512x64 := Rect.unit (s := S512x64) ![0, 0] S128x64.size inb_S512x64_S128x64_0_0
abbrev band1 : Rect S512x64 := Rect.unit (s := S512x64) ![128, 0] S128x64.size inb_S512x64_S128x64_128_0
abbrev band2 : Rect S512x64 := Rect.unit (s := S512x64) ![256, 0] S128x64.size inb_S512x64_S128x64_256_0
abbrev band3 : Rect S512x64 := Rect.unit (s := S512x64) ![384, 0] S128x64.size inb_S512x64_S128x64_384_0

/-! ## What the body leaves in the output block -/

/-- The output block after the body: band s holds the product of row block s of x with the transpose of W, plus
    band s of the noise block (the four stores, last first). -/
def outBlock (x0 x1 x2 x3 : Vec F S128x4096 .f32) (w : Vec F S64x4096 .f32) (nz : Vec F S512x64 .f32) : Vec F S512x64 .f32 :=
  View.canon [⟨band3, k0_pay5 (View.ld w rW) (View.ld x3 rX) (View.ld nz band3)⟩,
    ⟨band2, k0_pay4 (View.ld w rW) (View.ld x2 rX) (View.ld nz band2)⟩,
    ⟨band1, k0_pay3 (View.ld w rW) (View.ld x1 rX) (View.ld nz band1)⟩,
    ⟨band0, k0_pay2 (View.ld w rW) (View.ld x0 rX) (View.ld nz band0)⟩]

/-- The four bands tile the block, so every index lies in one of them. -/
theorem bands_cover (p3 p2 p1 p0 : Vec F S128x64 .f32) (y : S512x64.Idx) :
    ∃ pc ∈ ([⟨band3, p3⟩, ⟨band2, p2⟩, ⟨band1, p1⟩, ⟨band0, p0⟩] : List (View.Piece (Elt F) S512x64 .f32)), y ∈ pc.1.set :=
  View.cover_of_tiled [⟨band3, p3⟩, ⟨band2, p2⟩, ⟨band1, p1⟩, ⟨band0, p0⟩] S128x64.size (by rfl) y

/-! ## The body's triple -/

set_option maxHeartbeats 2000000 in
/-- The body on whole staging buffers. -/
theorem sound_kernel (c : Dev nD) (E : Set ℕ) (i : grid0.Coords)
    (arg1 : Memref sig .tc .vmem S128x4096 .f32) (harg1 : arg1.IsWhole) (arg2 : Memref sig .tc .vmem S128x4096 .f32) (harg2 : arg2.IsWhole)
    (arg3 : Memref sig .tc .vmem S128x4096 .f32) (harg3 : arg3.IsWhole) (arg4 : Memref sig .tc .vmem S128x4096 .f32) (harg4 : arg4.IsWhole)
    (arg5 : Memref sig .tc .vmem S64x4096 .f32) (harg5 : arg5.IsWhole) (arg6 : Memref sig .tc .vmem S512x64 .f32) (harg6 : arg6.IsWhole)
    (arg7 : Memref sig .tc .vmem S512x64 .f32) (harg7 : arg7.IsWhole)
    (x0 x1 x2 x3 : Vec F S128x4096 .f32) (w : Vec F S64x4096 .f32) (nz : Vec F S512x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w ∗ owns (c : Thread nD τ) arg6 fullShare nz
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w ∗ owns (c : Thread nD τ) arg6 fullShare nz
            ∗ owns (c : Thread nD τ) arg7 fullShare (outBlock x0 x1 x2 x3 w nz)) -∗ K ⟨⟩))
      ⊢ wp frame (wpE (defs₀ (F := F)) Variants.none c none) E
          (cc0__router_block i arg1 harg1 arg2 harg2 arg3 harg3 arg4 harg4 arg5 harg5 arg6 harg6 arg7 harg7) K := by
  simp only [cc0__router_block_eq_skeleton]; unfold cc0__router_block_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (bands_cover _ _ _ _)

end Cert.KernelIdeal.Router

end
-- ==== Proof.IdealRun.lean ====
/-
  The router's one pipeline, for every float instance: its proof data (each input window's staging buffer holds
  its block of the array at every point; the output block is the body's), the body at every point, the launch —
  the four windows that read x hold its buffer at a quarter share each — and the run: every weakly fair
  execution ends, nothing faulting, with each window's array at what the write-backs leave.
-/
import proofs.«137282_g14456859918464_retrytranche1_0_24_alg».proof.Proof.IdealBody
import Idealize.ShloMosaic.Lib.Pipeline.Launch

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- The program is the region alone: the region finds every buffer as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (the weight
    window is fetched once: its block index never moves), for any proof data over these arrays whose body leaves
    the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data: the arrays as launched; after the body each input buffer at its block and the output buffer at
    the body's output block of the six input blocks; nothing kept between points, nothing owed; x's buffer dealt
    in quarters to the four windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := BI.emp
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## Dealing the arrays to the windows -/

/-- The buffers behind the windows' arrays are x's, W's, the noise's and the result's. -/
theorem arrRefs_eq : Finset.univ.image (Pipeline.arrRef spec0) = insert main_arg0 (insert main_arg1 (insert main_arg2 {main_v0})) := by decide

/-- The four buffers, each whole at the full share, are the windows' arrays at the proof data's shares: x's buffer
    is halved and each half halved again, one quarter for each window that reads it. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hA : (dats m 0 c).arrays ((dats m 0 c).arrAt · 0)
      = bigSep Finset.univ fun w : Fin 7 => (((c : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [hA, bigSep_W0]
  unfold Pipeline.arrBufs
  rw [arrRefs_eq, bigSep_insert (by decide), bigSep_insert (by decide), bigSep_insert (by decide), bigSep_singleton]
  refine (show iprop((((c : Thread nD τ).loc main_arg0) ↦{fullShare} V m c main_arg0) ∗ (((c : Thread nD τ).loc main_arg1) ↦{fullShare} V m c main_arg1)
      ∗ (((c : Thread nD τ).loc main_arg2) ↦{fullShare} V m c main_arg2) ∗ (((c : Thread nD τ).loc main_v0) ↦{fullShare} V m c main_v0)) ⊢ _ from ?_)
  iintro ⟨Hx, Hw, Hn, Ho⟩
  ihave Hx' := (pointsTo_share (PosShare.mem_left_op_right fullShare)).1 $$ Hx
  icases Hx' with ⟨HL, HR⟩
  ihave HL' := (pointsTo_share (PosShare.mem_left_op_right fullShare.left)).1 $$ HL
  icases HL' with ⟨HLL, HLR⟩
  ihave HR' := (pointsTo_share (PosShare.mem_left_op_right fullShare.right)).1 $$ HR
  icases HR' with ⟨HRL, HRR⟩
  isplitl [HLL]; · iexact HLL
  isplitl [HLR]; · iexact HLR
  isplitl [HRL]; · iexact HRL
  isplitl [HRR]; · iexact HRR
  isplitl [Hw]; · iexact Hw
  isplitl [Hn]; · iexact Hn
  iexact Ho

/-! ## The run -/

set_option backward.isDefEq.respectTransparency.types false in
/-- At the compiled mesh, for any float values, from any memory with zero counters: every weakly fair execution of
    the program terminates, nothing faulting, with every window's array at what the write-backs leave. -/
theorem run_main : θ_run defs (onTc (τ := τ) (main (F := F))) (s₀ m ρ)
    (fun r => ∀ (c : Dev nD) (w : Fin cfg0.W), r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := arrays_split m)
    (X := fun _ => iprop(emp)) (Y := fun _ => iprop(emp)) (Z := fun _ => iprop(emp))
    (hX := fun c => by rw [unscopedRest0_eq]; iintro -; isplitr <;> iempintro)
    (hin := fun c => by iintro -; iempintro)
    (hout := fun c => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The three argument arrays end as launched: no window writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 0).trans (((dats m 0 c).arrAt_in 0 rfl _).trans (A_eq m c 0)),
      (h c 4).trans (((dats m 0 c).arrAt_in 4 rfl _).trans (A_eq m c 4)),
      (h c 5).trans (((dats m 0 c).arrAt_in 5 rfl _).trans (A_eq m c 5))⟩) (run_main m ρ)

end Cert.KernelIdeal.Router

end
-- ==== Proof.RouterSpec.lean ====
/-
  The router's logits as one function of the three argument arrays, index by index, over the extended reals:
  entry (r, e) is the inner product of row r of x with row e of W — the (r, e) entry of x times the transpose
  of W — plus entry (r, e) of the noise.
-/
import Idealize.ShloMosaic.PureOps.Ideal
import Idealize.ShloMosaic.Lib.ValueIdx

noncomputable section

namespace Cert.Router

open Idealize.ShloMosaic Idealize.ShloMosaic.ValueIdx

/-- logits r e = ∑ₖ x r k · W e k + noise r e. -/
def logits (x : (⟨2, ![8192, 4096]⟩ : Shape).Idx → Elt Ideal .f32) (w : (⟨2, ![64, 4096]⟩ : Shape).Idx → Elt Ideal .f32)
    (nz : (⟨2, ![8192, 64]⟩ : Shape).Idx → Elt Ideal .f32) : (⟨2, ![8192, 64]⟩ : Shape).Idx → Elt Ideal .f32 :=
  fun i => (∑ k : Fin 4096, x (ix2 (i 0) k) * w (ix2 (i 1) k)) + nz i

end Cert.Router

end
-- ==== Proof.IdealValue.lean ====
/-
  What the idealized router leaves in its result array: the logits of the three argument arrays.

  At the ideal instance the change of format before the matrix unit is the identity and the matrix product
  into a zero accumulator is the plain sum over the contracted axis, so a band of the output block holds,
  entry by entry, the inner product of a row of the band's x block with a row of W, plus the band's noise.
  Window s reads row block 4t + s of x and the output window writes row block t of the result, so band s of
  point t's block is exactly rows 512t + 128s … of the logits; the sixteen blocks tile the result.
-/
import proofs.«137282_g14456859918464_retrytranche1_0_24_alg».proof.Proof.IdealRun
import proofs.«137282_g14456859918464_retrytranche1_0_24_alg».proof.Proof.RouterSpec
import Idealize.ShloMosaic.Lib.Pipeline.Value
import Idealize.ShloMosaic.Lib.ValueIdx
import Idealize.ShloMosaic.PureOps.Ideal.Laws

set_option maxRecDepth 16384

noncomputable section

namespace Cert.KernelIdeal.Router

open Cert.KernelIdeal Cert.KernelIdeal.Gen Cert.Router
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The matrix product's operand indices -/

theorem lhs_row (j : S128x64.Idx) (q : dot_S128x4096_S64x4096_S128x64_1_1_0_0_n_n.contr.Idx) : (dot_S128x4096_S64x4096_S128x64_1_1_0_0_n_n.lhsIdx j q 0).val = (j 0).val := by
  unfold DotDims.lhsIdx
  rw [dif_neg (show ¬(0 : Fin S128x4096.rank) ∈ dot_S128x4096_S64x4096_S128x64_1_1_0_0_n_n.lhsBatch by decide), dif_pos (show (0 : Fin S128x4096.rank) ∈ dot_S128x4096_S64x4096_S128x64_1_1_0_0_n_n.lhsNonContracting by decide)]
  rfl
theorem lhs_col (j : S128x64.Idx) (q : dot_S128x4096_S64x4096_S128x64_1_1_0_0_n_n.contr.Idx) : (dot_S128x4096_S64x4096_S128x64_1_1_0_0_n_n.lhsIdx j q 1).val = (q ⟨0, by decide⟩).val :=
  dot_S128x4096_S64x4096_S128x64_1_1_0_0_n_n.lhsIdx_val_of_single rfl j q
theorem rhs_row (j : S128x64.Idx) (q : dot_S128x4096_S64x4096_S128x64_1_1_0_0_n_n.contr.Idx) : (dot_S128x4096_S64x4096_S128x64_1_1_0_0_n_n.rhsIdx j q 0).val = (j 1).val := by
  unfold DotDims.rhsIdx
  rw [dif_neg (show ¬(0 : Fin S64x4096.rank) ∈ dot_S128x4096_S64x4096_S128x64_1_1_0_0_n_n.rhsBatch by decide), dif_pos (show (0 : Fin S64x4096.rank) ∈ dot_S128x4096_S64x4096_S128x64_1_1_0_0_n_n.rhsNonContracting by decide)]
  rfl
theorem rhs_col (j : S128x64.Idx) (q : dot_S128x4096_S64x4096_S128x64_1_1_0_0_n_n.contr.Idx) : (dot_S128x4096_S64x4096_S128x64_1_1_0_0_n_n.rhsIdx j q 1).val = (q ⟨0, by decide⟩).val :=
  dot_S128x4096_S64x4096_S128x64_1_1_0_0_n_n.rhsIdx_val_of_single rfl j q

/-! ## A band's payload at an index -/

/-- The first band's payload, entry (p, e): the inner product of row p of the x block with row e of the W block,
    plus entry (p, e) of the noise band. (The other three bands' payloads are the same function.) -/
theorem pay_apply (w : Vec Ideal S64x4096 .f32) (x : Vec Ideal S128x4096 .f32) (nzb : Vec Ideal S128x64 .f32) (j : S128x64.Idx) :
    k0_pay2 (F := Ideal) w x nzb j = (∑ k : Fin 4096, x (ix2 (j 0) k) * w (ix2 (j 1) k)) + nzb j := by
  unfold k0_pay2 k0_pay1
  show FloatOps.matmul dot_S128x4096_S64x4096_S128x64_1_1_0_0_n_n none (truncf .bf16 x bitsLt_bf16_f32) (truncf .bf16 w bitsLt_bf16_f32) (constant (F := Ideal) S128x64 .f32 0x00000000#32) j + nzb j = _
  rw [Ideal.matmul_constant_zero_apply, ← Equiv.sum_comp (contrEquiv1 dot_S128x4096_S64x4096_S128x64_1_1_0_0_n_n 4096 rfl rfl).symm]
  congr 1
  refine Finset.sum_congr rfl fun k _ => ?_
  have hk := contrEquiv1_symm_val dot_S128x4096_S64x4096_S128x64_1_1_0_0_n_n 4096 rfl rfl k
  have el : dot_S128x4096_S64x4096_S128x64_1_1_0_0_n_n.lhsIdx j ((contrEquiv1 dot_S128x4096_S64x4096_S128x64_1_1_0_0_n_n 4096 rfl rfl).symm k) = ix2 (j 0) k := funext fun a => Fin.ext (by
    match a with
    | ⟨0, _⟩ => exact lhs_row _ _
    | ⟨1, _⟩ => exact (lhs_col _ _).trans hk)
  have er : dot_S128x4096_S64x4096_S128x64_1_1_0_0_n_n.rhsIdx j ((contrEquiv1 dot_S128x4096_S64x4096_S128x64_1_1_0_0_n_n 4096 rfl rfl).symm k) = ix2 (j 1) k := funext fun a => Fin.ext (by
    match a with
    | ⟨0, _⟩ => exact rhs_row _ _
    | ⟨1, _⟩ => exact (rhs_col _ _).trans hk)
  rw [el, er]
  rfl

/-! ## The windows' block indices over the grid -/

theorem hz : (![0, 0] : Fin 2 → Nat) = fun _ => 0 := funext fun a => by fin_cases a <;> rfl

/-- At point t the four x windows are at row blocks 4t, 4t + 1, 4t + 2, 4t + 3, the W window at the one block, the
    noise window where the output window is, at row block t < 16; all at column block 0. -/
theorem idx_facts : ∀ t : Fin cfg0.N,
    win0_0.index t (0 : Fin 2) = 4 * win0_6.index t (0 : Fin 2) + 0 ∧ win0_0.index t (1 : Fin 2) = 0
    ∧ win0_1.index t (0 : Fin 2) = 4 * win0_6.index t (0 : Fin 2) + 1 ∧ win0_1.index t (1 : Fin 2) = 0
    ∧ win0_2.index t (0 : Fin 2) = 4 * win0_6.index t (0 : Fin 2) + 2 ∧ win0_2.index t (1 : Fin 2) = 0
    ∧ win0_3.index t (0 : Fin 2) = 4 * win0_6.index t (0 : Fin 2) + 3 ∧ win0_3.index t (1 : Fin 2) = 0
    ∧ win0_4.index t (0 : Fin 2) = 0 ∧ win0_4.index t (1 : Fin 2) = 0
    ∧ win0_5.index t (0 : Fin 2) = win0_6.index t (0 : Fin 2) ∧ win0_5.index t (1 : Fin 2) = 0
    ∧ win0_6.index t (1 : Fin 2) = 0 ∧ win0_6.index t (0 : Fin 2) ≤ 15 :=
  (by decide +kernel : ∀ t : Fin grid0.N, _)

/-- Every row block of the result is some point's. -/
theorem idx_onto : ∀ q0 : Fin 16, ∃ t : Fin cfg0.N, win0_6.index t = ![q0.val, 0] :=
  (by decide +kernel : ∀ q0 : Fin 16, ∃ t : Fin grid0.N, win0_6.index t = ![q0.val, 0])

theorem logits_apply (x : (⟨2, ![8192, 4096]⟩ : Shape).Idx → Elt Ideal .f32) (w : (⟨2, ![64, 4096]⟩ : Shape).Idx → Elt Ideal .f32)
    (nz : (⟨2, ![8192, 64]⟩ : Shape).Idx → Elt Ideal .f32) (i : (⟨2, ![8192, 64]⟩ : Shape).Idx) :
    logits x w nz i = (∑ k : Fin 4096, x (ix2 (i 0) k) * w (ix2 (i 1) k)) + nz i := rfl

/-! ## The bands of a point's output block -/

/-- Band 0 of the output block at point `t`, entry by entry, is the logits at the array index the entry is written
    back to: window 0's row block starts at row (4t + 0)·128 of x, band 0 at row 512t + 0 of the result
    (the noise window sits exactly where the output window does). -/
theorem piece0 (c : Dev nD) (t : Fin cfg0.N) (x : S128x64.Idx) :
    k0_pay2 (F := Ideal) (View.ld (iblk m c 4 t) rW) (View.ld (iblk m c 0 t) rX) (View.ld (iblk m c 5 t) band0) x
      = logits (V m c main_arg0) (V m c main_arg1) (V m c main_arg2) (((cfg0.win 6).blk t).view.emb (band0.emb x)) := by
  obtain ⟨a0, a1, b0, b1, c0, c1, d0, d1, e0, e1, f0, f1, g1, g0⟩ := idx_facts t
  have hx0 : (x 0).val < 128 := (x 0).isLt
  have hx1 : (x 1).val < 64 := (x 1).isLt
  rw [show k0_pay2 (F := Ideal) = k0_pay2 (F := Ideal) from rfl, pay_apply, logits_apply]
  refine congrArg₂ (· + ·) (Finset.sum_congr rfl fun k _ => ?_) rfl
  have hk : k.val < 4096 := k.isLt
  refine congrArg₂ (· * ·) ?_ ?_
  · show V m c main_arg0 (((cfg0.win 0).blk t).view.emb (rX.emb (ix2 (x 0) k)))
      = V m c main_arg0 (ix2 ((((cfg0.win 6).blk t).view.emb (band0.emb x)) 0) k)
    refine congrArg _ (funext fun a => Fin.ext ?_)
    match a with
    | ⟨0, _⟩ =>
      show win0_0.index t (0 : Fin 2) * 128 + 1 * (0 + 1 * (x 0).val) = win0_6.index t (0 : Fin 2) * 512 + 1 * (0 + 1 * (x 0).val)
      omega
    | ⟨1, _⟩ =>
      show win0_0.index t (1 : Fin 2) * 4096 + 1 * (0 + 1 * k.val) = k.val
      omega
  · show V m c main_arg1 (((cfg0.win 4).blk t).view.emb (rW.emb (ix2 (x 1) k)))
      = V m c main_arg1 (ix2 ((((cfg0.win 6).blk t).view.emb (band0.emb x)) 1) k)
    refine congrArg _ (funext fun a => Fin.ext ?_)
    match a with
    | ⟨0, _⟩ =>
      show win0_4.index t (0 : Fin 2) * 64 + 1 * (0 + 1 * (x 1).val) = win0_6.index t (1 : Fin 2) * 64 + 1 * (0 + 1 * (x 1).val)
      omega
    | ⟨1, _⟩ =>
      show win0_4.index t (1 : Fin 2) * 4096 + 1 * (0 + 1 * k.val) = k.val
      omega

/-- Band 1 of the output block at point `t`, entry by entry, is the logits at the array index the entry is written
    back to: window 1's row block starts at row (4t + 1)·128 of x, band 1 at row 512t + 128 of the result
    (the noise window sits exactly where the output window does). -/
theorem piece1 (c : Dev nD) (t : Fin cfg0.N) (x : S128x64.Idx) :
    k0_pay3 (F := Ideal) (View.ld (iblk m c 4 t) rW) (View.ld (iblk m c 1 t) rX) (View.ld (iblk m c 5 t) band1) x
      = logits (V m c main_arg0) (V m c main_arg1) (V m c main_arg2) (((cfg0.win 6).blk t).view.emb (band1.emb x)) := by
  obtain ⟨a0, a1, b0, b1, c0, c1, d0, d1, e0, e1, f0, f1, g1, g0⟩ := idx_facts t
  have hx0 : (x 0).val < 128 := (x 0).isLt
  have hx1 : (x 1).val < 64 := (x 1).isLt
  rw [show k0_pay3 (F := Ideal) = k0_pay2 (F := Ideal) from rfl, pay_apply, logits_apply]
  refine congrArg₂ (· + ·) (Finset.sum_congr rfl fun k _ => ?_) rfl
  have hk : k.val < 4096 := k.isLt
  refine congrArg₂ (· * ·) ?_ ?_
  · show V m c main_arg0 (((cfg0.win 1).blk t).view.emb (rX.emb (ix2 (x 0) k)))
      = V m c main_arg0 (ix2 ((((cfg0.win 6).blk t).view.emb (band1.emb x)) 0) k)
    refine congrArg _ (funext fun a => Fin.ext ?_)
    match a with
    | ⟨0, _⟩ =>
      show win0_1.index t (0 : Fin 2) * 128 + 1 * (0 + 1 * (x 0).val) = win0_6.index t (0 : Fin 2) * 512 + 1 * (128 + 1 * (x 0).val)
      omega
    | ⟨1, _⟩ =>
      show win0_1.index t (1 : Fin 2) * 4096 + 1 * (0 + 1 * k.val) = k.val
      omega
  · show V m c main_arg1 (((cfg0.win 4).blk t).view.emb (rW.emb (ix2 (x 1) k)))
      = V m c main_arg1 (ix2 ((((cfg0.win 6).blk t).view.emb (band1.emb x)) 1) k)
    refine congrArg _ (funext fun a => Fin.ext ?_)
    match a with
    | ⟨0, _⟩ =>
      show win0_4.index t (0 : Fin 2) * 64 + 1 * (0 + 1 * (x 1).val) = win0_6.index t (1 : Fin 2) * 64 + 1 * (0 + 1 * (x 1).val)
      omega
    | ⟨1, _⟩ =>
      show win0_4.index t (1 : Fin 2) * 4096 + 1 * (0 + 1 * k.val) = k.val
      omega

/-- Band 2 of the output block at point `t`, entry by entry, is the logits at the array index the entry is written
    back to: window 2's row block starts at row (4t + 2)·128 of x, band 2 at row 512t + 256 of the result
    (the noise window sits exactly where the output window does). -/
theorem piece2 (c : Dev nD) (t : Fin cfg0.N) (x : S128x64.Idx) :
    k0_pay4 (F := Ideal) (View.ld (iblk m c 4 t) rW) (View.ld (iblk m c 2 t) rX) (View.ld (iblk m c 5 t) band2) x
      = logits (V m c main_arg0) (V m c main_arg1) (V m c main_arg2) (((cfg0.win 6).blk t).view.emb (band2.emb x)) := by
  obtain ⟨a0, a1, b0, b1, c0, c1, d0, d1, e0, e1, f0, f1, g1, g0⟩ := idx_facts t
  have hx0 : (x 0).val < 128 := (x 0).isLt
  have hx1 : (x 1).val < 64 := (x 1).isLt
  rw [show k0_pay4 (F := Ideal) = k0_pay2 (F := Ideal) from rfl, pay_apply, logits_apply]
  refine congrArg₂ (· + ·) (Finset.sum_congr rfl fun k _ => ?_) rfl
  have hk : k.val < 4096 := k.isLt
  refine congrArg₂ (· * ·) ?_ ?_
  · show V m c main_arg0 (((cfg0.win 2).blk t).view.emb (rX.emb (ix2 (x 0) k)))
      = V m c main_arg0 (ix2 ((((cfg0.win 6).blk t).view.emb (band2.emb x)) 0) k)
    refine congrArg _ (funext fun a => Fin.ext ?_)
    match a with
    | ⟨0, _⟩ =>
      show win0_2.index t (0 : Fin 2) * 128 + 1 * (0 + 1 * (x 0).val) = win0_6.index t (0 : Fin 2) * 512 + 1 * (256 + 1 * (x 0).val)
      omega
    | ⟨1, _⟩ =>
      show win0_2.index t (1 : Fin 2) * 4096 + 1 * (0 + 1 * k.val) = k.val
      omega
  · show V m c main_arg1 (((cfg0.win 4).blk t).view.emb (rW.emb (ix2 (x 1) k)))
      = V m c main_arg1 (ix2 ((((cfg0.win 6).blk t).view.emb (band2.emb x)) 1) k)
    refine congrArg _ (funext fun a => Fin.ext ?_)
    match a with
    | ⟨0, _⟩ =>
      show win0_4.index t (0 : Fin 2) * 64 + 1 * (0 + 1 * (x 1).val) = win0_6.index t (1 : Fin 2) * 64 + 1 * (0 + 1 * (x 1).val)
      omega
    | ⟨1, _⟩ =>
      show win0_4.index t (1 : Fin 2) * 4096 + 1 * (0 + 1 * k.val) = k.val
      omega

/-- Band 3 of the output block at point `t`, entry by entry, is the logits at the array index the entry is written
    back to: window 3's row block starts at row (4t + 3)·128 of x, band 3 at row 512t + 384 of the result
    (the noise window sits exactly where the output window does). -/
theorem piece3 (c : Dev nD) (t : Fin cfg0.N) (x : S128x64.Idx) :
    k0_pay5 (F := Ideal) (View.ld (iblk m c 4 t) rW) (View.ld (iblk m c 3 t) rX) (View.ld (iblk m c 5 t) band3) x
      = logits (V m c main_arg0) (V m c main_arg1) (V m c main_arg2) (((cfg0.win 6).blk t).view.emb (band3.emb x)) := by
  obtain ⟨a0, a1, b0, b1, c0, c1, d0, d1, e0, e1, f0, f1, g1, g0⟩ := idx_facts t
  have hx0 : (x 0).val < 128 := (x 0).isLt
  have hx1 : (x 1).val < 64 := (x 1).isLt
  rw [show k0_pay5 (F := Ideal) = k0_pay2 (F := Ideal) from rfl, pay_apply, logits_apply]
  refine congrArg₂ (· + ·) (Finset.sum_congr rfl fun k _ => ?_) rfl
  have hk : k.val < 4096 := k.isLt
  refine congrArg₂ (· * ·) ?_ ?_
  · show V m c main_arg0 (((cfg0.win 3).blk t).view.emb (rX.emb (ix2 (x 0) k)))
      = V m c main_arg0 (ix2 ((((cfg0.win 6).blk t).view.emb (band3.emb x)) 0) k)
    refine congrArg _ (funext fun a => Fin.ext ?_)
    match a with
    | ⟨0, _⟩ =>
      show win0_3.index t (0 : Fin 2) * 128 + 1 * (0 + 1 * (x 0).val) = win0_6.index t (0 : Fin 2) * 512 + 1 * (384 + 1 * (x 0).val)
      omega
    | ⟨1, _⟩ =>
      show win0_3.index t (1 : Fin 2) * 4096 + 1 * (0 + 1 * k.val) = k.val
      omega
  · show V m c main_arg1 (((cfg0.win 4).blk t).view.emb (rW.emb (ix2 (x 1) k)))
      = V m c main_arg1 (ix2 ((((cfg0.win 6).blk t).view.emb (band3.emb x)) 1) k)
    refine congrArg _ (funext fun a => Fin.ext ?_)
    match a with
    | ⟨0, _⟩ =>
      show win0_4.index t (0 : Fin 2) * 64 + 1 * (0 + 1 * (x 1).val) = win0_6.index t (1 : Fin 2) * 64 + 1 * (0 + 1 * (x 1).val)
      omega
    | ⟨1, _⟩ =>
      show win0_4.index t (1 : Fin 2) * 4096 + 1 * (0 + 1 * k.val) = k.val
      omega

/-- What point `t` writes back is block `t` of the logits of the argument arrays. -/
theorem flushed_eq (c : Dev nD) (t : Fin cfg0.N) :
    (dats m 0 c).flushed 6 t = ((cfg0.win 6).blk t).view.read (Elt Ideal) (logits (V m c main_arg0) (V m c main_arg1) (V m c main_arg2)) := by
  have key : ∀ y : S512x64.Idx, outBlock (iblk m c 0 t) (iblk m c 1 t) (iblk m c 2 t) (iblk m c 3 t) (iblk m c 4 t) (iblk m c 5 t) y
      = logits (V m c main_arg0) (V m c main_arg1) (V m c main_arg2) (((cfg0.win 6).blk t).view.emb y) := by
    intro y
    unfold outBlock
    refine View.canon_apply_of_pieces (fun y => logits (V m c main_arg0) (V m c main_arg1) (V m c main_arg2) (((cfg0.win 6).blk t).view.emb y)) _ ?_ y (bands_cover _ _ _ _ y)
    intro p hp
    simp only [List.mem_cons, List.mem_singleton, List.not_mem_nil, or_false] at hp
    rcases hp with rfl | rfl | rfl | rfl
    · exact fun x => piece3 m c t x
    · exact fun x => piece2 m c t x
    · exact fun x => piece1 m c t x
    · exact fun x => piece0 m c t x
  show (cfg0.win 6).cut (grid0.coords t) ((dats m 0 c).after 6 t) = _
  rw [after_out]
  funext y
  exact key y

/-- An index of the result is in point `t`'s block iff each coordinate is in the block's range on its axis. -/
theorem mem_blk (t : Fin cfg0.N) (i : S8192x64.Idx) :
    i ∈ ((cfg0.win 6).blk t).view.set ↔ ∀ a : Fin 2, win0_6.index t a * S512x64.size a ≤ (i a).val ∧ (i a).val < win0_6.index t a * S512x64.size a + S512x64.size a := by
  show i ∈ ((View.whole main_v0).slice (win0_6.rect t)).set ↔ _
  rw [View.set_slice_whole, Rect.mem_set_unit]
  exact Iff.rfl

/-- The sixteen blocks tile the result: row r is in the block of the point at row block r / 512. -/
theorem covered (i : S8192x64.Idx) : ∃ t : Fin cfg0.N, (cfg0.win 6).flush t = true ∧ i ∈ ((cfg0.win 6).blk t).view.set := by
  have hi0 : (i 0).val < 8192 := (i 0).isLt
  have hi1 : (i 1).val < 64 := (i 1).isLt
  obtain ⟨t, ht⟩ := idx_onto ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 64 ≤ (i 1).val ∧ (i 1).val < win0_6.index t (1 : Fin 2) * 64 + 64; omega

/-- The result array after the run is the logits of the argument arrays. -/
theorem final (c : Dev nD) : (dats m 0 c).arrAt 6 cfg0.N = logits (V m c main_arg0) (V m c main_arg1) (V m c main_arg2) :=
  (dats m 0 c).arrAt_eq_of_cover 6 _ (fun t _ => flushed_eq m c t) covered

/-- The run, read: the result at the logits of the launch contents, the arguments unchanged. -/
theorem run_value : θ_run defs (onTc (τ := τ) (main (F := Ideal))) ⟨m, fun _ => 0, ρ⟩ fun r => ∀ c : Dev nD,
      r.2.mem ((c.tc : Thread nD τ).loc main_v0)
        = logits (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c 6).trans (final m c),
      (h c 0).trans (((dats m 0 c).arrAt_in 0 rfl _).trans (A_eq m c 0)),
      (h c 4).trans (((dats m 0 c).arrAt_in 4 rfl _).trans (A_eq m c 4)),
      (h c 5).trans (((dats m 0 c).arrAt_in 5 rfl _).trans (A_eq m c 5))⟩) (run_main m ρ)

end Cert.KernelIdeal.Router

end
-- ==== Proof.RefSide.lean ====
/-
  The reference at the ideal instance computes the router's logits: its transpose of W followed by the
  contraction of x's columns with the transposed W's rows is, entry by entry, the inner product of a row of x
  with a row of W, and the final add supplies the noise.
-/
import proofs.«137282_g14456859918464_retrytranche1_0_24_alg».proof.Proof.Gen.ReferenceIdeal.Read
import proofs.«137282_g14456859918464_retrytranche1_0_24_alg».proof.Proof.RouterSpec

noncomputable section

namespace Cert.ReferenceIdeal.RefValue

open Cert.ReferenceIdeal Cert.ReferenceIdeal.Read Idealize.ShloMosaic Idealize.ShloMosaic.ValueIdx

/-- The reference's last stage is `logits` of its three arguments. -/
theorem ref_logits (x0 : (⟨S8192x4096, .f32⟩ : BufTy).Contents (Elt Ideal)) (x1 : (⟨S64x4096, .f32⟩ : BufTy).Contents (Elt Ideal))
    (x2 : (⟨S8192x64, .f32⟩ : BufTy).Contents (Elt Ideal)) :
    val_main_v2 (F := Ideal) x0 x1 x2 = Cert.Router.logits x0 x1 x2 := by
  funext i
  have e1 : ∀ k : Fin 4096, lidx_main_v1 i k = ix2 (i 0) k := fun k => funext fun a => by
    match a with
    | ⟨0, _⟩ => rfl
    | ⟨1, _⟩ => rfl
  have e2 : ∀ k : Fin 4096, idx_main_v0 (ridx_main_v1 i k) = ix2 (i 1) k := fun k => funext fun a => by
    match a with
    | ⟨0, _⟩ => rfl
    | ⟨1, _⟩ => rfl
  rw [val_main_v2_apply, val_main_v1_apply]
  simp only [val_main_v0_apply, e1, e2]
  rfl

end Cert.ReferenceIdeal.RefValue

end
-- ==== Proof.lean ====
/-
  The router kernel against its reference, logits = x · Wᵀ + noise.

  All three programs run to the end without a fault and leave their arguments as launched. The kernel hands x
  to four windows of its one pipeline, each reading its own quarter of every 512-row block; the launch deals
  x's buffer to them in quarter shares, and the body's four matrix products fill the four bands of the output
  block. At the ideal instance the kernel's result array and the reference's are the same function of the
  arguments, entry by entry: the inner product of a row of x with a row of W, plus the noise — the same sum on
  both sides, so no law of the extended reals beyond reading both sides at an index is needed, and the
  precondition is never opened. The ideal pass rewrote nothing, so there is nothing to preserve.
-/
import proofs.«137282_g14456859918464_retrytranche1_0_24_alg».proof.Defs
import proofs.«137282_g14456859918464_retrytranche1_0_24_alg».proof.Proof.Gen.Kernel
import proofs.«137282_g14456859918464_retrytranche1_0_24_alg».proof.Proof.Gen.Kernel.Skeleton
import proofs.«137282_g14456859918464_retrytranche1_0_24_alg».proof.Proof.Gen.Kernel.Launch
import proofs.«137282_g14456859918464_retrytranche1_0_24_alg».proof.Proof.Gen.Kernel.Points
import proofs.«137282_g14456859918464_retrytranche1_0_24_alg».proof.Proof.Gen.KernelIdeal
import proofs.«137282_g14456859918464_retrytranche1_0_24_alg».proof.Proof.Gen.KernelIdeal.Skeleton
import proofs.«137282_g14456859918464_retrytranche1_0_24_alg».proof.Proof.Gen.KernelIdeal.Launch
import proofs.«137282_g14456859918464_retrytranche1_0_24_alg».proof.Proof.Gen.KernelIdeal.Points
import proofs.«137282_g14456859918464_retrytranche1_0_24_alg».proof.Proof.Gen.ReferenceIdeal
import proofs.«137282_g14456859918464_retrytranche1_0_24_alg».proof.Proof.Gen.ReferenceIdeal.Read
import proofs.«137282_g14456859918464_retrytranche1_0_24_alg».proof.Proof.Gen.Pre_finite_inputs
import proofs.«137282_g14456859918464_retrytranche1_0_24_alg».proof.Proof.BitsRun
import proofs.«137282_g14456859918464_retrytranche1_0_24_alg».proof.Proof.IdealValue
import proofs.«137282_g14456859918464_retrytranche1_0_24_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Router.frame m ρ

/-- So does its idealization. -/
theorem frame_kernelIdeal : Cert.frame_KernelIdeal := fun m ρ _ => Cert.KernelIdeal.Router.frame m ρ

/-- The reference is three host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the logits of the (agreeing) arguments in their result arrays. -/
theorem algebraic : Cert.algebraic_KernelIdeal_ReferenceIdeal := by
  intro m ρ m' ρ' _ hagree
  refine ⟨_, Cert.KernelIdeal.Router.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.RefValue.ref_logits,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
